-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S4x2048x64 : Shape := ⟨3, ![4, 2048, 64]⟩
abbrev S4x64x64 : Shape := ⟨3, ![4, 64, 64]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .local _ .vmem, ⟨0, _⟩ => ⟨S4x2048x64, .f32⟩
  | .local _ .vmem, ⟨1, _⟩ => ⟨S4x2048x64, .f32⟩
  | .local _ .vmem, ⟨2, _⟩ => ⟨S4x2048x64, .f32⟩
  | .local _ .vmem, ⟨3, _⟩ => ⟨S4x2048x64, .f32⟩
  | .local _ .vmem, ⟨4, _⟩ => ⟨S4x2048x64, .f32⟩
  | .local _ .vmem, ⟨5, _⟩ => ⟨S4x2048x64, .f32⟩
  | .local _ .vmem, ⟨6, _⟩ => ⟨S4x2048x64, .f32⟩
  | .local _ .vmem, ⟨7, _⟩ => ⟨S4x2048x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4x2048x64_S4x2048x64_0_0_0 : ∀ a, (![0, 0, 0] : Fin 3 → Nat) a + S4x2048x64.size a ≤ S4x2048x64.size a
  h_S4x2048x64 : 0 < S4x2048x64.numel
  dot_S4x2048x64_S4x2048x64_S4x64x64_1_1_2_2_0_0_wf : DotDims.WF S4x2048x64 S4x2048x64 S4x64x64 [1] [1] [2] [2] [0] [0]
  dot_S4x2048x64_S4x64x64_S4x2048x64_2_1_1_2_0_0_wf : DotDims.WF S4x2048x64 S4x64x64 S4x2048x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x64.size a ≤ S16x2048x64.size a
  hwx0_0 : ∀ i : grid0.Coords, EltTy.bits .f32 = 32 ∨ (Rect.block (s := S16x2048x64) S4x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2048x64.size a ≤ S16x2048x64.size a
  hwx0_1 : ∀ i : grid0.Coords, EltTy.bits .f32 = 32 ∨ (Rect.block (s := S16x2048x64) S4x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048x64.size a ≤ S16x2048x64.size a
  hwx0_2 : ∀ i : grid0.Coords, EltTy.bits .f32 = 32 ∨ (Rect.block (s := S16x2048x64) S4x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048x64.size a ≤ S16x2048x64.size a
  hwx0_3 : ∀ i : grid0.Coords, EltTy.bits .f32 = 32 ∨ (Rect.block (s := S16x2048x64) S4x2048x64.size (cc0_transform_3 i) (hinb0_3 i)).WholeWords (EltTy.packing .f32)

variable [Facts₀]

def dot_S4x2048x64_S4x2048x64_S4x64x64_1_1_2_2_0_0 : DotDims S4x2048x64 S4x2048x64 S4x64x64 where
  lhsContracting := [1]
  rhsContracting := [1]
  lhsNonContracting := [2]
  rhsNonContracting := [2]
  lhsBatch := [0]
  rhsBatch := [0]
  wf := dot_S4x2048x64_S4x2048x64_S4x64x64_1_1_2_2_0_0_wf
def dot_S4x2048x64_S4x64x64_S4x2048x64_2_1_1_2_0_0 : DotDims S4x2048x64 S4x64x64 S4x2048x64 where
  lhsContracting := [2]
  rhsContracting := [1]
  lhsNonContracting := [1]
  rhsNonContracting := [2]
  lhsBatch := [0]
  rhsBatch := [0]
  wf := dot_S4x2048x64_S4x64x64_S4x2048x64_2_1_1_2_0_0_wf

abbrev win0_0 : Pipeline.Window sig grid0 :=
  Pipeline.Window.ofSpec (Memref.whole main_arg0) S4x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_1_1_2_2_0_0_wf : DotDims.WF S16x2048x2048 S16x2048x64 S16x2048x64 [1] [1] [2] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_1_1_2_2_0_0 : DotDims S16x2048x2048 S16x2048x64 S16x2048x64 where
  lhsContracting := [1]
  rhsContracting := [1]
  lhsNonContracting := [2]
  rhsNonContracting := [2]
  lhsBatch := [0]
  rhsBatch := [0]
  wf := dot_S16x2048x2048_S16x2048x64_S16x2048x64_1_1_2_2_0_0_wf

class Facts : Prop extends Facts₀ where

variable [Facts]
-- ==== Proof.KernelPayload.lean ====
/-
  What the kernel body stores, index by index.

  On one block of four batches the body loads the query, key and value blocks `Q`, `K`, `V` (each 4 × 2048 × 64) and
  forms two batched matrix products, each into a zero accumulator:

    * `M (b, d, e) = ∑ s, K (b, s, d) · Q (b, s, e)`   — the sequence axis of the key and query blocks contracted,
      a 64 × 64 matrix per batch;
    * `out (b, r, e) = ∑ d, V (b, r, d) · M (b, d, e)` — the feature axis of the value block against the first axis of `M`.

  At the ideal values a matrix product into the zero accumulator is the plain sum over its contracted axis; the
  operand indices of each product are named coordinate by coordinate (batch, contracted, free), and the one
  contracted axis is re-indexed by `Fin 2048`, resp. `Fin 64`.
-/
import proofs.«160443_j2920577761328_2_alg».proof.Proof.Gen.KernelIdeal.Skeleton
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The first product: key against query over the sequence axis -/

theorem keyQuery_lhs_0 (j : S4x64x64.Idx) (q : dot_S4x2048x64_S4x2048x64_S4x64x64_1_1_2_2_0_0.contr.Idx) :
    (dot_S4x2048x64_S4x2048x64_S4x64x64_1_1_2_2_0_0.lhsIdx j q 0).val = (j 0).val := by
  unfold DotDims.lhsIdx
  rw [dif_pos (show (0 : Fin S4x2048x64.rank) ∈ dot_S4x2048x64_S4x2048x64_S4x64x64_1_1_2_2_0_0.lhsBatch by decide)]
  rfl
theorem keyQuery_lhs_1 (j : S4x64x64.Idx) (q : dot_S4x2048x64_S4x2048x64_S4x64x64_1_1_2_2_0_0.contr.Idx) :
    (dot_S4x2048x64_S4x2048x64_S4x64x64_1_1_2_2_0_0.lhsIdx j q 1).val = (q ⟨0, by decide⟩).val :=
  dot_S4x2048x64_S4x2048x64_S4x64x64_1_1_2_2_0_0.lhsIdx_val_of_single rfl j q
theorem keyQuery_lhs_2 (j : S4x64x64.Idx) (q : dot_S4x2048x64_S4x2048x64_S4x64x64_1_1_2_2_0_0.contr.Idx) :
    (dot_S4x2048x64_S4x2048x64_S4x64x64_1_1_2_2_0_0.lhsIdx j q 2).val = (j 1).val := by
  unfold DotDims.lhsIdx
  rw [dif_neg (show ¬(2 : Fin S4x2048x64.rank) ∈ dot_S4x2048x64_S4x2048x64_S4x64x64_1_1_2_2_0_0.lhsBatch by decide), dif_pos (show (2 : Fin S4x2048x64.rank) ∈ dot_S4x2048x64_S4x2048x64_S4x64x64_1_1_2_2_0_0.lhsNonContracting by decide)]
  rfl
theorem keyQuery_rhs_0 (j : S4x64x64.Idx) (q : dot_S4x2048x64_S4x2048x64_S4x64x64_1_1_2_2_0_0.contr.Idx) :
    (dot_S4x2048x64_S4x2048x64_S4x64x64_1_1_2_2_0_0.rhsIdx j q 0).val = (j 0).val := by
  unfold DotDims.rhsIdx
  rw [dif_pos (show (0 : Fin S4x2048x64.rank) ∈ dot_S4x2048x64_S4x2048x64_S4x64x64_1_1_2_2_0_0.rhsBatch by decide)]
  rfl
theorem keyQuery_rhs_1 (j : S4x64x64.Idx) (q : dot_S4x2048x64_S4x2048x64_S4x64x64_1_1_2_2_0_0.contr.Idx) :
    (dot_S4x2048x64_S4x2048x64_S4x64x64_1_1_2_2_0_0.rhsIdx j q 1).val = (q ⟨0, by decide⟩).val :=
  dot_S4x2048x64_S4x2048x64_S4x64x64_1_1_2_2_0_0.rhsIdx_val_of_single rfl j q
theorem keyQuery_rhs_2 (j : S4x64x64.Idx) (q : dot_S4x2048x64_S4x2048x64_S4x64x64_1_1_2_2_0_0.contr.Idx) :
    (dot_S4x2048x64_S4x2048x64_S4x64x64_1_1_2_2_0_0.rhsIdx j q 2).val = (j 2).val := by
  unfold DotDims.rhsIdx
  rw [dif_neg (show ¬(2 : Fin S4x2048x64.rank) ∈ dot_S4x2048x64_S4x2048x64_S4x64x64_1_1_2_2_0_0.rhsBatch by decide), dif_pos (show (2 : Fin S4x2048x64.rank) ∈ dot_S4x2048x64_S4x2048x64_S4x64x64_1_1_2_2_0_0.rhsNonContracting by decide)]
  rfl

/-- `M (b, d, e) = ∑ s, K (b, s, d) · Q (b, s, e)`: the first product into the zero accumulator, at an index. -/
theorem keyQuery_apply (kb qb : FVec Ideal S4x2048x64 .f32) (b : Fin 4) (d e : Fin 64) :
    matmul dot_S4x2048x64_S4x2048x64_S4x64x64_1_1_2_2_0_0 (some .fp32) kb qb (constant (F := Ideal) S4x64x64 .f32 0x00000000#32) (ix3 b d e)
      = ∑ s : Fin 2048, kb (ix3 b s d) * qb (ix3 b s e) := by
  refine (Ideal.matmul_constant_zero_apply dot_S4x2048x64_S4x2048x64_S4x64x64_1_1_2_2_0_0 (some .fp32) kb qb (ix3 b d e)).trans ?_
  rw [← Equiv.sum_comp (contrEquiv1 dot_S4x2048x64_S4x2048x64_S4x64x64_1_1_2_2_0_0 2048 rfl rfl).symm]
  refine Finset.sum_congr rfl fun s _ => ?_
  have hs := contrEquiv1_symm_val dot_S4x2048x64_S4x2048x64_S4x64x64_1_1_2_2_0_0 2048 rfl rfl s
  have el : dot_S4x2048x64_S4x2048x64_S4x64x64_1_1_2_2_0_0.lhsIdx (ix3 b d e) ((contrEquiv1 dot_S4x2048x64_S4x2048x64_S4x64x64_1_1_2_2_0_0 2048 rfl rfl).symm s) = ix3 b s d := funext fun a => Fin.ext (by
    match a with
    | ⟨0, _⟩ => exact keyQuery_lhs_0 _ _
    | ⟨1, _⟩ => exact (keyQuery_lhs_1 _ _).trans hs
    | ⟨2, _⟩ => exact keyQuery_lhs_2 _ _)
  have er : dot_S4x2048x64_S4x2048x64_S4x64x64_1_1_2_2_0_0.rhsIdx (ix3 b d e) ((contrEquiv1 dot_S4x2048x64_S4x2048x64_S4x64x64_1_1_2_2_0_0 2048 rfl rfl).symm s) = ix3 b s e := funext fun a => Fin.ext (by
    match a with
    | ⟨0, _⟩ => exact keyQuery_rhs_0 _ _
    | ⟨1, _⟩ => exact (keyQuery_rhs_1 _ _).trans hs
    | ⟨2, _⟩ => exact keyQuery_rhs_2 _ _)
  rw [el, er]

/-! ## The second product: value against the small matrix over the feature axis -/

theorem valueSmall_lhs_0 (j : S4x2048x64.Idx) (q : dot_S4x2048x64_S4x64x64_S4x2048x64_2_1_1_2_0_0.contr.Idx) :
    (dot_S4x2048x64_S4x64x64_S4x2048x64_2_1_1_2_0_0.lhsIdx j q 0).val = (j 0).val := by
  unfold DotDims.lhsIdx
  rw [dif_pos (show (0 : Fin S4x2048x64.rank) ∈ dot_S4x2048x64_S4x64x64_S4x2048x64_2_1_1_2_0_0.lhsBatch by decide)]
  rfl
theorem valueSmall_lhs_1 (j : S4x2048x64.Idx) (q : dot_S4x2048x64_S4x64x64_S4x2048x64_2_1_1_2_0_0.contr.Idx) :
    (dot_S4x2048x64_S4x64x64_S4x2048x64_2_1_1_2_0_0.lhsIdx j q 1).val = (j 1).val := by
  unfold DotDims.lhsIdx
  rw [dif_neg (show ¬(1 : Fin S4x2048x64.rank) ∈ dot_S4x2048x64_S4x64x64_S4x2048x64_2_1_1_2_0_0.lhsBatch by decide), dif_pos (show (1 : Fin S4x2048x64.rank) ∈ dot_S4x2048x64_S4x64x64_S4x2048x64_2_1_1_2_0_0.lhsNonContracting by decide)]
  rfl
theorem valueSmall_lhs_2 (j : S4x2048x64.Idx) (q : dot_S4x2048x64_S4x64x64_S4x2048x64_2_1_1_2_0_0.contr.Idx) :
    (dot_S4x2048x64_S4x64x64_S4x2048x64_2_1_1_2_0_0.lhsIdx j q 2).val = (q ⟨0, by decide⟩).val :=
  dot_S4x2048x64_S4x64x64_S4x2048x64_2_1_1_2_0_0.lhsIdx_val_of_single rfl j q
theorem valueSmall_rhs_0 (j : S4x2048x64.Idx) (q : dot_S4x2048x64_S4x64x64_S4x2048x64_2_1_1_2_0_0.contr.Idx) :
    (dot_S4x2048x64_S4x64x64_S4x2048x64_2_1_1_2_0_0.rhsIdx j q 0).val = (j 0).val := by
  unfold DotDims.rhsIdx
  rw [dif_pos (show (0 : Fin S4x64x64.rank) ∈ dot_S4x2048x64_S4x64x64_S4x2048x64_2_1_1_2_0_0.rhsBatch by decide)]
  rfl
theorem valueSmall_rhs_1 (j : S4x2048x64.Idx) (q : dot_S4x2048x64_S4x64x64_S4x2048x64_2_1_1_2_0_0.contr.Idx) :
    (dot_S4x2048x64_S4x64x64_S4x2048x64_2_1_1_2_0_0.rhsIdx j q 1).val = (q ⟨0, by decide⟩).val :=
  dot_S4x2048x64_S4x64x64_S4x2048x64_2_1_1_2_0_0.rhsIdx_val_of_single rfl j q
theorem valueSmall_rhs_2 (j : S4x2048x64.Idx) (q : dot_S4x2048x64_S4x64x64_S4x2048x64_2_1_1_2_0_0.contr.Idx) :
    (dot_S4x2048x64_S4x64x64_S4x2048x64_2_1_1_2_0_0.rhsIdx j q 2).val = (j 2).val := by
  unfold DotDims.rhsIdx
  rw [dif_neg (show ¬(2 : Fin S4x64x64.rank) ∈ dot_S4x2048x64_S4x64x64_S4x2048x64_2_1_1_2_0_0.rhsBatch by decide), dif_pos (show (2 : Fin S4x64x64.rank) ∈ dot_S4x2048x64_S4x64x64_S4x2048x64_2_1_1_2_0_0.rhsNonContracting by decide)]
  rfl

/-- `out (b, r, e) = ∑ d, V (b, r, d) · M (b, d, e)`: the second product into the zero accumulator, at an index. -/
theorem valueSmall_apply (vb : FVec Ideal S4x2048x64 .f32) (mb : FVec Ideal S4x64x64 .f32) (b : Fin 4) (r : Fin 2048) (e : Fin 64) :
    matmul dot_S4x2048x64_S4x64x64_S4x2048x64_2_1_1_2_0_0 (some .fp32) vb mb (constant (F := Ideal) S4x2048x64 .f32 0x00000000#32) (ix3 b r e)
      = ∑ d : Fin 64, vb (ix3 b r d) * mb (ix3 b d e) := by
  refine (Ideal.matmul_constant_zero_apply dot_S4x2048x64_S4x64x64_S4x2048x64_2_1_1_2_0_0 (some .fp32) vb mb (ix3 b r e)).trans ?_
  rw [← Equiv.sum_comp (contrEquiv1 dot_S4x2048x64_S4x64x64_S4x2048x64_2_1_1_2_0_0 64 rfl rfl).symm]
  refine Finset.sum_congr rfl fun d _ => ?_
  have hd := contrEquiv1_symm_val dot_S4x2048x64_S4x64x64_S4x2048x64_2_1_1_2_0_0 64 rfl rfl d
  have el : dot_S4x2048x64_S4x64x64_S4x2048x64_2_1_1_2_0_0.lhsIdx (ix3 b r e) ((contrEquiv1 dot_S4x2048x64_S4x64x64_S4x2048x64_2_1_1_2_0_0 64 rfl rfl).symm d) = ix3 b r d := funext fun a => Fin.ext (by
    match a with
    | ⟨0, _⟩ => exact valueSmall_lhs_0 _ _
    | ⟨1, _⟩ => exact valueSmall_lhs_1 _ _
    | ⟨2, _⟩ => exact (valueSmall_lhs_2 _ _).trans hd)
  have er : dot_S4x2048x64_S4x64x64_S4x2048x64_2_1_1_2_0_0.rhsIdx (ix3 b r e) ((contrEquiv1 dot_S4x2048x64_S4x64x64_S4x2048x64_2_1_1_2_0_0 64 rfl rfl).symm d) = ix3 b d e := funext fun a => Fin.ext (by
    match a with
    | ⟨0, _⟩ => exact valueSmall_rhs_0 _ _
    | ⟨1, _⟩ => exact (valueSmall_rhs_1 _ _).trans hd
    | ⟨2, _⟩ => exact valueSmall_rhs_2 _ _)
  rw [el, er]

/-! ## The stored value -/

/-- The value the body stores, at `(b, r, e)` of the block: `∑ d, V (b, r, d) · ∑ s, K (b, s, d) · Q (b, s, e)` of the
    loaded query (`qb`), key (`kb`) and value (`vb`) blocks. -/
theorem stored_apply (qb kb vb : Vec Ideal S4x2048x64 .f32) (b : Fin 4) (r : Fin 2048) (e : Fin 64) :
    k0_pay1 (F := Ideal) qb kb vb (ix3 b r e)
      = ∑ d : Fin 64, vb (ix3 b r d) * ∑ s : Fin 2048, kb (ix3 b s d) * qb (ix3 b s e) := by
  unfold k0_pay1
  refine (valueSmall_apply vb _ b r e).trans ?_
  exact Finset.sum_congr rfl fun d _ => congrArg (vb (ix3 b r d) * ·) (keyQuery_apply kb qb b d e)

end Cert.KernelIdeal.Payload

end
-- ==== Proof.LibReassoc.lean ====
/-
  Re-associating a double contraction on the extended reals.

  For finite index types `ι`, `κ` and families whose entries are all REAL numbers (read as extended reals),

      ∑ d, V d * (∑ k, K k d * Q k)  =  ∑ k, (∑ d, K k d * V d) * Q k.

  Left to right: distribute the factor `V d` over the inner sum, exchange the two finite sums, and collect the factor
  `Q k`, which does not depend on `d`. Each summand on both sides is the triple product `K k d · V d · Q k`.
  On the extended reals multiplication does not distribute over addition at the infinities (`⊤ + ⊥` absorbs), so the
  identity is stated for real entries only; it is then the identity of the real field carried along the coercion,
  which commutes with products and with finite sums.
-/
import Mathlib.Data.EReal.Operations
import Mathlib.Algebra.BigOperators.Ring.Finset
import Mathlib.Algebra.BigOperators.Group.Finset.Sigma
import Mathlib.Tactic.Ring

namespace Cert.LibReassoc

/-- The coercion `ℝ → EReal` commutes with finite sums (it commutes with `0` and with `+`). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in the real field: both sides are the sum over all pairs `(k, d)` of `K k d · V d · Q k`. -/
theorem sum_mul_sum_reassoc_real {ι κ : Type*} [Fintype ι] [Fintype κ] (V : ι → ℝ) (K : κ → ι → ℝ) (Q : κ → ℝ) :
    ∑ d, V d * ∑ k, K k d * Q k = ∑ k, (∑ d, K k d * V d) * Q k := by
  simp_rw [Finset.mul_sum, Finset.sum_mul]
  rw [Finset.sum_comm]
  exact Finset.sum_congr rfl fun k _ => Finset.sum_congr rfl fun d _ => by ring

/-- The identity on the extended reals, for families all of whose entries are real. -/
theorem sum_mul_sum_reassoc {ι κ : Type*} [Fintype ι] [Fintype κ] (V : ι → EReal) (K : κ → ι → EReal) (Q : κ → EReal)
    (hV : ∀ d, ∃ r : ℝ, V d = r) (hK : ∀ k d, ∃ r : ℝ, K k d = r) (hQ : ∀ k, ∃ r : ℝ, Q k = r) :
    ∑ d, V d * ∑ k, K k d * Q k = ∑ k, (∑ d, K k d * V d) * Q k := by
  choose v hv using hV
  choose a ha using hK
  choose q hq using hQ
  simp only [hv, ha, hq, ← EReal.coe_mul, ← coe_sum]
  exact congrArg _ (sum_mul_sum_reassoc_real v a q)

end Cert.LibReassoc
-- ==== Proof.Spec.lean ====
/-
  The result array as one function of the three argument arrays, in the two associations the two programs use.

  Write `Q`, `K`, `V` for the query, key and value arrays, each indexed by (batch `b`, sequence position, feature), of
  extents 16 × 2048 × 64. The result at `(b, r, e)` is the triple contraction

      ∑ over sequence positions `s` and features `d` of   K (b, s, d) · V (b, r, d) · Q (b, s, e).

  * `viaKeyQuery` contracts the sequence axis FIRST: the small 64 × 64 product `M (b, d, e) = ∑ s, K (b, s, d) · Q (b, s, e)`,
    then `∑ d, V (b, r, d) · M (b, d, e)`.
  * `viaKeyValue` contracts the feature axis FIRST: the large 2048 × 2048 product `C (b, s, r) = ∑ d, K (b, s, d) · V (b, r, d)`,
    then `∑ s, C (b, s, r) · Q (b, s, e)`.

  The two agree when every entry is a real number (distributivity and the exchange of two finite sums); at infinite
  entries the extended reals do not distribute, so finiteness is a hypothesis.
-/
import Idealize.ShloMosaic.PureOps.Ideal
import Idealize.ShloMosaic.Lib.ValueIdx
import proofs.«160443_j2920577761328_2_alg».proof.Proof.LibReassoc

noncomputable section

namespace Cert.Spec

open Idealize.ShloMosaic Idealize.ShloMosaic.ValueIdx

/-- An array of extents 16 × 2048 × 64 of extended reals. -/
abbrev Arr : Type := (⟨3, ![16, 2048, 64]⟩ : Shape).Idx → EReal

/-- Every entry of the array is a real number. -/
def AllReal (x : Arr) : Prop := ∀ i, ∃ r : ℝ, x i = r

/-- The sequence axis contracted first: `∑ d, V (b, r, d) · (∑ s, K (b, s, d) · Q (b, s, e))` at `(b, r, e)`. -/
def viaKeyQuery (q k v : Arr) : Arr := fun i =>
  ∑ d : Fin 64, v (ix3 (i 0) (i 1) d) * ∑ s : Fin 2048, k (ix3 (i 0) s d) * q (ix3 (i 0) s (i 2))

/-- The feature axis contracted first: `∑ s, (∑ d, K (b, s, d) · V (b, r, d)) · Q (b, s, e)` at `(b, r, e)`. -/
def viaKeyValue (q k v : Arr) : Arr := fun i =>
  ∑ s : Fin 2048, (∑ d : Fin 64, k (ix3 (i 0) s d) * v (ix3 (i 0) (i 1) d)) * q (ix3 (i 0) s (i 2))

/-- On real entries the two associations are one function. -/
theorem viaKeyQuery_eq_viaKeyValue (q k v : Arr) (hq : AllReal q) (hk : AllReal k) (hv : AllReal v) :
    viaKeyQuery q k v = viaKeyValue q k v := by
  funext i
  exact Cert.LibReassoc.sum_mul_sum_reassoc (fun d : Fin 64 => v (ix3 (i 0) (i 1) d))
    (fun (s : Fin 2048) (d : Fin 64) => k (ix3 (i 0) s d)) (fun s : Fin 2048 => q (ix3 (i 0) s (i 2)))
    (fun _ => hv _) (fun _ _ => hk _) (fun _ => hq _)

end Cert.Spec

end
-- ==== Proof.KernelValue.lean ====
/-
  The kernel's result array is the sequence-first association of the triple contraction.

  The grid has four points; at point `t` each of the three input windows holds batches `4 t … 4 t + 3` of its array
  (all 2048 sequence positions and all 64 features), and the output window writes back the same batches of the result.
  Inside a block a batch `b` is batch `4 t + b` of the array and the other two coordinates are unchanged, so the value the
  body stores at `(b, r, e)` — `∑ d, V (b, r, d) · ∑ s, K (b, s, d) · Q (b, s, e)` of the blocks — is
  `Spec.viaKeyQuery` of the whole arrays at `(4 t + b, r, e)`: the contraction never leaves the batch. The four blocks
  tile the array (batch `B` lies in the block of point `B / 4`), so after the run the whole array is that function.
-/
import proofs.«160443_j2920577761328_2_alg».proof.Proof.Gen.KernelIdeal.Value
import proofs.«160443_j2920577761328_2_alg».proof.Proof.KernelPayload
import proofs.«160443_j2920577761328_2_alg».proof.Proof.Spec

noncomputable section

namespace Cert.KernelIdeal.WholeArray

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's one store starts at the origin of the staging buffer. -/
theorem origin : (![0, 0, 0] : Fin 3 → Nat) = fun _ => 0 := funext fun a => by fin_cases a <;> rfl

/-- One block, read against the whole arrays: if batch `b` of the three loaded blocks is batch `B` of the arrays
    `Q`, `K`, `V`, the stored value at `(b, r, e)` is the sequence-first contraction of the arrays at `(B, r, e)`. -/
theorem stored_eq_spec (qb kb vb : Vec Ideal S4x2048x64 .f32) (Q K V : Cert.Spec.Arr) (b : Fin 4) (B : Fin 16)
    (hq : ∀ (s : Fin 2048) (d : Fin 64), qb (ix3 b s d) = Q (ix3 B s d))
    (hk : ∀ (s : Fin 2048) (d : Fin 64), kb (ix3 b s d) = K (ix3 B s d))
    (hv : ∀ (s : Fin 2048) (d : Fin 64), vb (ix3 b s d) = V (ix3 B s d))
    (r : Fin 2048) (e : Fin 64) :
    k0_pay1 (F := Ideal) qb kb vb (ix3 b r e) = Cert.Spec.viaKeyQuery Q K V (ix3 B r e) := by
  refine (Cert.KernelIdeal.Payload.stored_apply qb kb vb b r e).trans ?_
  unfold Cert.Spec.viaKeyQuery
  simp only [hq, hk, hv]

/-- The printed index maps over the four grid points: every window's block index is `(t, 0, 0)` — the three inputs
    move with the output — and the output's batch-block index is at most 3. -/
theorem index_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 3 ∧ win0_3.index t (1 : Fin 3) = 0 ∧ win0_3.index t (2 : Fin 3) = 0 :=
  (by decide +kernel : ∀ t : Fin grid0.N, _)

/-- Every batch-block `0 … 3` is some point's. -/
theorem index_onto : ∀ p : Fin 4, ∃ t : Fin cfg0.N, win0_3.index t = ![p.val, 0, 0] :=
  (by decide +kernel : ∀ p : Fin 4, ∃ t : Fin grid0.N, win0_3.index t = ![p.val, 0, 0])

/-- WHAT POINT `t` WRITES BACK is block `t` of the sequence-first contraction of the three argument arrays. -/
theorem flushed_eq (c : Dev nD) (t : Fin cfg0.N) :
    (dats m 0 c).flushed 3 t = ((cfg0.win 3).blk t).view.read (Elt Ideal)
      (Cert.Spec.viaKeyQuery (V m c main_arg0) (V m c main_arg1) (V m c main_arg2)) := by
  rw [Cert.KernelIdeal.Value.flushed3]
  unfold out0_3
  rw [View.canon_unit_zero origin]
  simp only [View.ld_unit_zero (S := S4x2048x64) origin]
  obtain ⟨q0, q1, q2, k0, k1, k2, v0, v1, v2, o0, o1, o2⟩ := index_facts t
  funext j
  show k0_pay1 (F := Ideal) (iblk m c 0 t) (iblk m c 1 t) (iblk m c 2 t) j
    = Cert.Spec.viaKeyQuery (V m c main_arg0) (V m c main_arg1) (V m c main_arg2) (((cfg0.win 3).blk t).view.emb j)
  have hj0 : (j 0).val < 4 := (j 0).isLt
  have hj1 : (j 1).val < 2048 := (j 1).isLt
  have hj2 : (j 2).val < 64 := (j 2).isLt
  -- the batch of the array that batch `j 0` of the block is
  let B : Fin 16 := ⟨win0_3.index t (0 : Fin 3) * 4 + 1 * (j 0).val, by omega⟩
  have hi : ((cfg0.win 3).blk t).view.emb j = ix3 B (j 1) (j 2) := by
    funext a; apply Fin.ext
    match a with
    | ⟨0, _⟩ => rfl
    | ⟨1, _⟩ => show win0_3.index t (1 : Fin 3) * 2048 + 1 * (j 1).val = (j 1).val; omega
    | ⟨2, _⟩ => show win0_3.index t (2 : Fin 3) * 64 + 1 * (j 2).val = (j 2).val; omega
  have hq : ∀ (s : Fin 2048) (d : Fin 64), iblk m c 0 t (ix3 (j 0) s d) = V m c main_arg0 (ix3 B s d) := fun s d => by
    show V m c main_arg0 (((cfg0.win 0).blk t).view.emb (ix3 (j 0) s d)) = V m c main_arg0 (ix3 B s d)
    refine congrArg _ (funext fun a => Fin.ext ?_)
    match a with
    | ⟨0, _⟩ => show win0_0.index t (0 : Fin 3) * 4 + 1 * (j 0).val = win0_3.index t (0 : Fin 3) * 4 + 1 * (j 0).val; omega
    | ⟨1, _⟩ => show win0_0.index t (1 : Fin 3) * 2048 + 1 * s.val = s.val; omega
    | ⟨2, _⟩ => show win0_0.index t (2 : Fin 3) * 64 + 1 * d.val = d.val; omega
  have hk : ∀ (s : Fin 2048) (d : Fin 64), iblk m c 1 t (ix3 (j 0) s d) = V m c main_arg1 (ix3 B s d) := fun s d => by
    show V m c main_arg1 (((cfg0.win 1).blk t).view.emb (ix3 (j 0) s d)) = V m c main_arg1 (ix3 B s d)
    refine congrArg _ (funext fun a => Fin.ext ?_)
    match a with
    | ⟨0, _⟩ => show win0_1.index t (0 : Fin 3) * 4 + 1 * (j 0).val = win0_3.index t (0 : Fin 3) * 4 + 1 * (j 0).val; omega
    | ⟨1, _⟩ => show win0_1.index t (1 : Fin 3) * 2048 + 1 * s.val = s.val; omega
    | ⟨2, _⟩ => show win0_1.index t (2 : Fin 3) * 64 + 1 * d.val = d.val; omega
  have hv : ∀ (s : Fin 2048) (d : Fin 64), iblk m c 2 t (ix3 (j 0) s d) = V m c main_arg2 (ix3 B s d) := fun s d => by
    show V m c main_arg2 (((cfg0.win 2).blk t).view.emb (ix3 (j 0) s d)) = V m c main_arg2 (ix3 B s d)
    refine congrArg _ (funext fun a => Fin.ext ?_)
    match a with
    | ⟨0, _⟩ => show win0_2.index t (0 : Fin 3) * 4 + 1 * (j 0).val = win0_3.index t (0 : Fin 3) * 4 + 1 * (j 0).val; omega
    | ⟨1, _⟩ => show win0_2.index t (1 : Fin 3) * 2048 + 1 * s.val = s.val; omega
    | ⟨2, _⟩ => show win0_2.index t (2 : Fin 3) * 64 + 1 * d.val = d.val; omega
  refine (congrArg (k0_pay1 (F := Ideal) (iblk m c 0 t) (iblk m c 1 t) (iblk m c 2 t)) (eq_ix3 j)).trans ?_
  refine (stored_eq_spec (iblk m c 0 t) (iblk m c 1 t) (iblk m c 2 t) (V m c main_arg0) (V m c main_arg1) (V m c main_arg2)
    (j 0) B hq hk hv (j 1) (j 2)).trans ?_
  exact congrArg (Cert.Spec.viaKeyQuery (V m c main_arg0) (V m c main_arg1) (V m c main_arg2)) hi.symm

/-- An index of the array is in point `t`'s block iff each coordinate is in the block's range on its axis. -/
theorem mem_blk (t : Fin cfg0.N) (i : S16x2048x64.Idx) :
    i ∈ ((cfg0.win 3).blk t).view.set ↔ ∀ a : Fin 3, win0_3.index t a * S4x2048x64.size a ≤ (i a).val ∧ (i a).val < win0_3.index t a * S4x2048x64.size a + S4x2048x64.size a := by
  show i ∈ ((View.whole main_v0).slice (win0_3.rect t)).set ↔ _
  rw [View.set_slice_whole, Rect.mem_set_unit]
  exact Iff.rfl

/-- The four blocks tile the array: the index with batch `B` is in the block of the point whose batch-block is `B / 4`. -/
theorem cover (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := index_onto ⟨(i 0).val / 4, by omega⟩
  have p0 : win0_3.index t (0 : Fin 3) = (i 0).val / 4 := congrFun ht 0
  have p1 : win0_3.index t (1 : Fin 3) = 0 := congrFun ht 1
  have p2 : win0_3.index t (2 : Fin 3) = 0 := congrFun ht 2
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-- THE ARRAY after the run: the sequence-first contraction of the three argument arrays as launched. -/
theorem final (c : Dev nD) : (dats m 0 c).arrAt 3 cfg0.N
    = Cert.Spec.viaKeyQuery (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result array ends at that function of the arguments, the arguments unchanged. -/
theorem run : θ_run defs (onTc (τ := τ) (main (F := Ideal))) ⟨m, fun _ => 0, ρ⟩ fun r => ∀ c : Dev nD,
      r.2.mem ((c : Thread nD τ).loc main_v0)
        = Cert.Spec.viaKeyQuery (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.WholeArray

end
-- ==== Proof.RefValue.lean ====
/-
  The reference computes the feature-first association.

  Its first product contracts the feature axis of the key and value arrays, `C (b, s, r) = ∑ d, K (b, s, d) · V (b, r, d)`
  (2048 × 2048 per batch); its second contracts the sequence axis of `C` with the query array,
  `∑ s, C (b, s, r) · Q (b, s, e)` at `(b, r, e)`. Read index by index that is `Spec.viaKeyValue`: the first product's
  operand indices at `(b, s, r)` and `d` are `(b, s, d)` and `(b, r, d)`; the second's at `(b, r, e)` and `s` are
  `(b, s, r)` and `(b, s, e)`.
-/
import proofs.«160443_j2920577761328_2_alg».proof.Proof.Gen.ReferenceIdeal.Read
import proofs.«160443_j2920577761328_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result, as a function of the query (`x0`), key (`x1`) and value (`x2`) arrays, is the
    feature-first association of the triple contraction. -/
theorem result_eq_viaKeyValue (x0 x1 x2 : (⟨S16x2048x64, .f32⟩ : BufTy).Contents (Elt Ideal)) :
    val_main_v1 (F := Ideal) x0 x1 x2 = Cert.Spec.viaKeyValue x0 x1 x2 := by
  funext i
  rw [val_main_v1_apply]
  unfold Cert.Spec.viaKeyValue
  refine Finset.sum_congr rfl fun s _ => ?_
  rw [val_main_v0_apply]
  -- the key array is read at (b, s, d): batch and sequence position of the first product's output index (b, s, r)
  have ek : ∀ d : Fin 64, lidx_main_v0 (lidx_main_v1 i s) d = ix3 (i 0) s d := fun d =>
    funext fun a => Fin.ext (by match a with | ⟨0, _⟩ => rfl | ⟨1, _⟩ => rfl | ⟨2, _⟩ => rfl)
  -- the value array is read at (b, r, d): batch and last coordinate of (b, s, r)
  have ev : ∀ d : Fin 64, ridx_main_v0 (lidx_main_v1 i s) d = ix3 (i 0) (i 1) d := fun d =>
    funext fun a => Fin.ext (by match a with | ⟨0, _⟩ => rfl | ⟨1, _⟩ => rfl | ⟨2, _⟩ => rfl)
  -- the query array is read at (b, s, e)
  have eq : ridx_main_v1 i s = ix3 (i 0) s (i 2) :=
    funext fun a => Fin.ext (by match a with | ⟨0, _⟩ => rfl | ⟨1, _⟩ => rfl | ⟨2, _⟩ => rfl)
  simp only [ek, ev, eq]
  rfl

end Cert.ReferenceIdeal.RefValue

end
-- ==== Proof.Finite.lean ====
/-
  Under the precondition every entry of the three argument arrays is a real number.

  The precondition is the conjunction, over the three arrays, of "every entry `x` satisfies `|x| < +∞`", where at the
  ideal values `|x|` is `max x (-x)` on the extended reals and the bound is the word of the float `+∞`, which denotes `⊤`.
  For an extended real, `max x (-x) < ⊤` excludes both `x = ⊤` and `x = ⊥` (whose negation is `⊤`), so `x` is real.
  A conjunction of truth words is one exactly when each is; an "all" reduction into a single word is one only if
  the reduced array is one at every index.
-/
import proofs.«160443_j2920577761328_2_alg».proof.Proof.Gen.Pre_finite_inputs
import proofs.«160443_j2920577761328_2_alg».proof.Proof.Spec
import Idealize.ShloMosaic.Lib.ReduceAll
import Idealize.ShloMosaic.Lib.Affine
import Idealize.ShloMosaic.PureOps.Ideal

noncomputable section

namespace Cert.Finite

open Idealize.ShloMosaic Idealize.ShloMosaic.ValueIdx Cert.Pre_finite_inputs Cert.Pre_finite_inputs.Gen

/-- The word of the float `+∞` (exponent all ones, fraction zero, sign clear) denotes `⊤`. -/
theorem inf_word : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = r := by
  induction x using EReal.rec with
  | bot => simp at h
  | coe r => exact ⟨r, rfl⟩
  | top => simp at h

/-- The ordered "less than" comparison answers one exactly when its left side is below its right side. -/
theorem lt_of_cmp_olt (a b : EReal) (h : Ideal.cmp .olt a b = 1#1) : a < b := by
  unfold Ideal.cmp at h
  by_contra hn
  simp [hn] at h

/-- The index type of a rank-zero shape has one element. -/
instance : Subsingleton S_.Idx := ⟨fun a b => funext fun d => d.elim0⟩

/-- From the precondition: every entry of each of the three argument arrays is real. -/
theorem allReal_of_pre (x0 x1 x2 : FVec Ideal S16x2048x64 .f32)
    (h : Cert.Pre_finite_inputs.fn (F := Ideal) x0 x1 x2 = fun _ => 1#1) :
    Cert.Spec.AllReal x0 ∧ Cert.Spec.AllReal x1 ∧ Cert.Spec.AllReal x2 := by
  have h0 := congrFun h ix0
  dsimp only [Cert.Pre_finite_inputs.fn] at h0
  simp only [Idealize.ShloMosaic.andi] at h0
  rw [IntOp.andi_eq_one, IntOp.andi_eq_one] at h0
  obtain ⟨⟨a0, a1⟩, a2⟩ := h0
  refine ⟨fun i => ?_, fun i => ?_, fun i => ?_⟩
  · have e := Host.reduce_andi_all _ _ _ _ _ a0 i
    change Ideal.cmp .olt (max (x0 i) (-(x0 i))) (Ideal.ofBits .f32 0x7F800000#32) = 1#1 at e
    rw [inf_word] at e
    exact real_of_abs_lt_top _ (lt_of_cmp_olt _ _ e)
  · have e := Host.reduce_andi_all _ _ _ _ _ a1 i
    change Ideal.cmp .olt (max (x1 i) (-(x1 i))) (Ideal.ofBits .f32 0x7F800000#32) = 1#1 at e
    rw [inf_word] at e
    exact real_of_abs_lt_top _ (lt_of_cmp_olt _ _ e)
  · have e := Host.reduce_andi_all _ _ _ _ _ a2 i
    change Ideal.cmp .olt (max (x2 i) (-(x2 i))) (Ideal.ofBits .f32 0x7F800000#32) = 1#1 at e
    rw [inf_word] at e
    exact real_of_abs_lt_top _ (lt_of_cmp_olt _ _ e)

end Cert.Finite

end
-- ==== Proof.lean ====
/-
  A linear (softmax-free) attention, computed in two associations.

  With `Q`, `K`, `V` the query, key and value arrays (16 batches × 2048 sequence positions × 64 features), both programs
  compute, at `(b, r, e)`, the triple contraction

      ∑ over positions `s` and features `d` of   K (b, s, d) · V (b, r, d) · Q (b, s, e).

  The reference contracts the feature axis first — the 2048 × 2048 matrix `C (b, s, r) = ∑ d, K (b, s, d) · V (b, r, d)`,
  then `∑ s, C (b, s, r) · Q (b, s, e)` (Proof/RefValue.lean). The kernel, four batches per grid point, contracts the
  sequence axis first — the 64 × 64 matrix `M (b, d, e) = ∑ s, K (b, s, d) · Q (b, s, e)`, then
  `∑ d, V (b, r, d) · M (b, d, e)` (Proof/KernelPayload.lean for one block, Proof/KernelValue.lean for the whole array).
  The two are equal by distributing a factor over a finite sum and exchanging two finite sums
  (Proof/LibReassoc.lean, Proof/Spec.lean). On the extended reals that needs every entry to be a real number, which
  is what the precondition says: each input's absolute value is below `+∞` (Proof/Finite.lean).

  No operation was rewritten on the way to the idealized kernel, so the idealization claim is the trivial one, and the
  three frame claims are the programs' own runs with the result forgotten.
-/
import proofs.«160443_j2920577761328_2_alg».proof.Defs
import proofs.«160443_j2920577761328_2_alg».proof.Proof.Gen.Kernel
import proofs.«160443_j2920577761328_2_alg».proof.Proof.Gen.Kernel.Skeleton
import proofs.«160443_j2920577761328_2_alg».proof.Proof.Gen.Kernel.Launch
import proofs.«160443_j2920577761328_2_alg».proof.Proof.Gen.Kernel.Points
import proofs.«160443_j2920577761328_2_alg».proof.Proof.Gen.Kernel.Frame
import proofs.«160443_j2920577761328_2_alg».proof.Proof.Gen.KernelIdeal
import proofs.«160443_j2920577761328_2_alg».proof.Proof.Gen.KernelIdeal.Skeleton
import proofs.«160443_j2920577761328_2_alg».proof.Proof.Gen.KernelIdeal.Launch
import proofs.«160443_j2920577761328_2_alg».proof.Proof.Gen.KernelIdeal.Points
import proofs.«160443_j2920577761328_2_alg».proof.Proof.Gen.KernelIdeal.Frame
import proofs.«160443_j2920577761328_2_alg».proof.Proof.Gen.ReferenceIdeal
import proofs.«160443_j2920577761328_2_alg».proof.Proof.Gen.KernelIdeal.Value
import proofs.«160443_j2920577761328_2_alg».proof.Proof.Gen.ReferenceIdeal.Run
import proofs.«160443_j2920577761328_2_alg».proof.Proof.Gen.ReferenceIdeal.Read
import proofs.«160443_j2920577761328_2_alg».proof.Proof.Gen.Pre_finite_inputs
import proofs.«160443_j2920577761328_2_alg».proof.Proof.KernelValue
import proofs.«160443_j2920577761328_2_alg».proof.Proof.RefValue
import proofs.«160443_j2920577761328_2_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is two host products in a row: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: nothing was rewritten. -/
theorem preserves : Cert.preserves_Kernel_KernelIdeal := trivial

/-- Both runs end with the triple contraction of the three arguments: the kernel's result is its sequence-first
    association, the reference's its feature-first association, and on real entries — which the precondition gives —
    the two are one function. -/
theorem algebraic : Cert.algebraic_KernelIdeal_ReferenceIdeal := by
  intro m ρ m' ρ' hpre hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v1_eq _ _ _).trans
    (Cert.ReferenceIdeal.RefValue.result_eq_viaKeyValue _ _ _)).trans ?_
  rw [(hagree c).1, (hagree c).2.1, (hagree c).2.2]
  obtain ⟨h0, h1, h2⟩ := Cert.Finite.allReal_of_pre _ _ _ (hpre c)
  exact (Cert.Spec.viaKeyQuery_eq_viaKeyValue _ _ _ h0 h1 h2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
